-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S256x128 : Shape := ⟨2, ![256, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S1024x128 .f32) (main_arg1 : FVec F S1024x128 .f32) (main_arg2 : FVec F S256x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S1024x128 : Shape := ⟨2, ![1024, 128]⟩
abbrev S256x128 : Shape := ⟨2, ![256, 128]⟩
abbrev S1024x1024 : Shape := ⟨2, ![1024, 1024]⟩
abbrev S512x128 : Shape := ⟨2, ![512, 128]⟩
abbrev S512x1024 : Shape := ⟨2, ![512, 1024]⟩
abbrev S128x256 : Shape := ⟨2, ![128, 256]⟩
abbrev S512x256 : Shape := ⟨2, ![512, 256]⟩
abbrev S1024x256 : Shape := ⟨2, ![1024, 256]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S256x128, .f32⟩
  | .hbm, ⟨3, _⟩ => ⟨S1024x1024, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S256x128, .f32⟩
  | .local _ .vmem, ⟨4, _⟩ => ⟨S512x1024, .f32⟩
  | .local _ .vmem, ⟨5, _⟩ => ⟨S512x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  natLt_1_32 : 1 < 32
  transposes_S1024x256_p1_0_S256x1024 : S1024x256.Transposes [1, 0] S256x1024
  inb_S512x1024_S512x1024_0_0 : ∀ a, (![0, 0] : Fin 2 → Nat) a + S512x1024.size a ≤ S512x1024.size a
  h_S512x1024 : 0 < S512x1024.numel
  dot_S512x128_S128x256_S512x256_1_0_0_1_n_n_wf : DotDims.WF S512x128 S128x256 S512x256 [1] [0] [0] [1] [] []
  dot_S1024x128_S128x256_S1024x256_1_0_0_1_n_n_wf : DotDims.WF S1024x128 S128x256 S1024x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x1024.size a
  hwx0_3 : ∀ i : grid0.Coords, EltTy.bits .f32 = 32 ∨ (Rect.block (s := S1024x1024) S512x1024.size (cc0_transform_3 i) (hinb0_3 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128 : Shape := ⟨2, ![1024, 128]⟩
abbrev S256x128 : Shape := ⟨2, ![256, 128]⟩
abbrev S128x256 : Shape := ⟨2, ![128, 256]⟩
abbrev S1024x256 : Shape := ⟨2, ![1024, 256]⟩
abbrev S1024x1x256 : Shape := ⟨3, ![1024, 1, 256]⟩
abbrev S1x1024x256 : Shape := ⟨3, ![1, 1024, 256]⟩
abbrev S_ : Shape := ⟨0, ![]⟩
abbrev S1024x1024x256 : Shape := ⟨3, ![1024, 1024, 256]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S256x128, .f32⟩
  | .hbm, ⟨3, _⟩ => ⟨S128x256, .f32⟩
  | .hbm, ⟨4, _⟩ => ⟨S1024x256, .f32⟩
  | .hbm, ⟨5, _⟩ => ⟨S128x256, .f32⟩
  | .hbm, ⟨6, _⟩ => ⟨S1024x256, .f32⟩
  | .hbm, ⟨7, _⟩ => ⟨S1024x1x256, .f32⟩
  | .hbm, ⟨8, _⟩ => ⟨S1x1024x256, .f32⟩
  | .hbm, ⟨9, _⟩ => ⟨S_, .f32⟩
  | .hbm, ⟨10, _⟩ => ⟨S1024x1x256, .f32⟩
  | .hbm, ⟨11, _⟩ => ⟨S1024x1x256, .i1⟩
  | .hbm, ⟨12, _⟩ => ⟨S_, .f32⟩
  | .hbm, ⟨13, _⟩ => ⟨S1x1024x256, .f32⟩
  | .hbm, ⟨14, _⟩ => ⟨S1x1024x256, .i1⟩
  | .hbm, ⟨15, _⟩ => ⟨S1024x1024x256, .i1⟩
  | .hbm, ⟨16, _⟩ => ⟨S1024x1024x256, .i1⟩
  | .hbm, ⟨17, _⟩ => ⟨S1024x1024x256, .i1⟩
  | .hbm, ⟨18, _⟩ => ⟨S1024x1024x256, .f32⟩
  | .hbm, ⟨19, _⟩ => ⟨S1024x1024x256, .f32⟩
  | .hbm, ⟨20, _⟩ => ⟨S1024x1024x256, .f32⟩
  | .hbm, ⟨21, _⟩ => ⟨S_, .f32⟩
  | .hbm, ⟨22, _⟩ => ⟨S1024x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S256x128_S128x256_1_0 : S256x128.Transposes [1, 0] S128x256
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S_S1024x1x256 : S_.BroadcastsInDim S1024x1x256 (![] : Fin 0 → Fin S1024x1x256.rank)
  bcast_S_S1x1024x256 : S_.BroadcastsInDim S1x1024x256 (![] : Fin 0 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  dot_S1024x128_S128x256_S1024x256_1_0_0_1_n_n_wf : DotDims.WF S1024x128 S128x256 S1024x256 [1] [0] [0] [1] [] []

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

class Facts : Prop extends Facts₀ where

variable [Facts]
-- ==== Proof.Spec.lean ====
/-
  The mathematics of the certificate, with no program in sight.

  Three arrays: `a`, `b` of 1024 rows and `f` of 256 rows, every row of 128 entries. Write `⟨u, w⟩ = ∑ d, u d * w d` for two
  rows. Entry `(p, q)` of the result is

      ∑ k, max ⟨a p, f k⟩ 0 * [⟨b q, f k⟩ ≤ 0]

  where the bracket is the bit of the comparison read as the number 0 or 1. One side computes exactly this; the other
  computes

      0 + ∑ k, ⟨a p, f k⟩ * [0 < ⟨a p, f k⟩ and ⟨b q, f k⟩ ≤ 0]

  The two agree term by term on the extended reals: where `0 < x` the maximum `max x 0` is `x` and the conjunction's bit is the
  second comparison's; where `x ≤ 0` the maximum is `0`, the conjunction's bit is `0`, and both products are `0` — a product
  with `0` is `0` for every extended real, the infinities included, so no finiteness is used.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The product of two rows of 128 entries: `∑ d, u d * w d`. -/
def dotRow (u w : Fin 128 → EReal) : EReal := ∑ d : Fin 128, u d * w d

/-- The bit of `y ≤ 0` widened to 32 bits and read as a signed integer: the number 0 or 1. -/
def leBit (y : EReal) : EReal := (((((Ideal.cmp .ole y 0).setWidth 32).toInt : ℤ) : ℝ) : EReal)

/-- The bit of `0 < x` and `y ≤ 0` together, read as an unsigned integer: the number 0 or 1. -/
def posLeBit (x y : EReal) : EReal := ((((IntOp.andi (Ideal.cmp .ogt x 0) (Ideal.cmp .ole y 0)).toNat : ℕ) : ℝ) : EReal)

/-- One entry of the result from row `u` of the first array, row `v` of the second and the rows `W` of the third. -/
def cell (u v : Fin 128 → EReal) (W : Fin 256 → Fin 128 → EReal) : EReal :=
  ∑ k : Fin 256, max (dotRow u (W k)) 0 * leBit (dotRow v (W k))

/-- THE LAW, term by term: `x` times the bit of "`0 < x` and `y ≤ 0`" is `max x 0` times the bit of "`y ≤ 0`". -/
theorem mul_posLeBit (x y : EReal) : x * posLeBit x y = max x 0 * leBit y := by
  unfold posLeBit leBit Ideal.cmp
  by_cases hx : 0 < x
  · by_cases hy : y ≤ 0
    · simp [hx, hy, IntOp.andi, max_eq_left hx.le]
    · simp [hx, hy, IntOp.andi, max_eq_left hx.le]
  · have hx' : x ≤ 0 := not_lt.mp hx
    by_cases hy : y ≤ 0
    · simp [hx, hy, IntOp.andi, max_eq_right hx']
    · simp [hx, hy, IntOp.andi, max_eq_right hx']

/-- So the sum with the conjunction's bit, started from `0`, is the entry. -/
theorem cell_eq_sum_posLeBit (u v : Fin 128 → EReal) (W : Fin 256 → Fin 128 → EReal) :
    (0 : EReal) + ∑ k : Fin 256, dotRow u (W k) * posLeBit (dotRow u (W k)) (dotRow v (W k)) = cell u v W := by
  rw [zero_add]
  exact Finset.sum_congr rfl fun k _ => mul_posLeBit _ _

/-- THE RESULT as one function of the three arrays: entry `(p, q)` from row `p` of `a`, row `q` of `b`, and the rows of `f`. -/
def G (a b : (⟨2, ![1024, 128]⟩ : Shape).Idx → EReal) (f : (⟨2, ![256, 128]⟩ : Shape).Idx → EReal) :
    (⟨2, ![1024, 1024]⟩ : Shape).Idx → EReal :=
  fun i => cell (fun d => a (ix2 (⟨(i 0).val, (i 0).isLt⟩ : Fin 1024) d)) (fun d => b (ix2 (⟨(i 1).val, (i 1).isLt⟩ : Fin 1024) d))
    (fun k d => f (ix2 k d))

/-- `G` at the index of coordinates `p`, `q`. -/
theorem G_apply (a b : (⟨2, ![1024, 128]⟩ : Shape).Idx → EReal) (f : (⟨2, ![256, 128]⟩ : Shape).Idx → EReal)
    (p q : Fin 1024) :
    G a b f (ix2 p q) = cell (fun d => a (ix2 p d)) (fun d => b (ix2 q d)) (fun k d => f (ix2 k d)) := rfl

end Cert.Spec

end
-- ==== Proof.RefValue.lean ====
/-
  The reference side: the host program's last stage, read one operation at a time at an index, is the result function `G`.

  Its two matrix products at `(p, k)` are the row products `⟨a p, f k⟩` and `⟨b q, f k⟩` (the transposed third array read at
  `(d, k)` is the array at `(k, d)`); the two comparisons are broadcast along the missing axis, joined by `and`, read as an
  unsigned integer and multiplied onto the first product; the sum over the last axis starts from the zero word. That is
  `0 + ∑ k, x * [0 < x and y ≤ 0]`, which the termwise law of the specification turns into the entry `cell`.
-/
import proofs.«126909_j89567247991564_2_alg».proof.Proof.Gen.ReferenceIdeal.Read
import proofs.«126909_j89567247991564_2_alg».proof.Proof.Spec

noncomputable section

open scoped BigOperators

namespace Cert.RefSide

open Cert.ReferenceIdeal Cert.ReferenceIdeal.Gen Cert.ReferenceIdeal.Read
open Idealize.ShloMosaic Idealize.ShloMosaic.ValueIdx Cert.Spec

/-- The first product at `(p, k)`: row `p` of the first array times row `k` of the third. -/
theorem proj_a (x0 : (⟨S1024x128, .f32⟩ : BufTy).Contents (Elt Ideal)) (x2 : (⟨S256x128, .f32⟩ : BufTy).Contents (Elt Ideal))
    (p : Fin 1024) (k : Fin 256) :
    val_main_v1 (F := Ideal) x0 x2 (ix2 p k) = dotRow (fun d => x0 (ix2 p d)) (fun d => x2 (ix2 k d)) := by
  rw [val_main_v1_apply]
  unfold dotRow
  refine Finset.sum_congr rfl fun d _ => ?_
  rw [val_main_v0_apply]
  have e1 : lidx_main_v1 (ix2 p k) d = ix2 p d :=
    funext fun a => Fin.ext (by match a with | ⟨0, _⟩ => rfl | ⟨1, _⟩ => rfl)
  have e2 : idx_main_v0 (ridx_main_v1 (ix2 p k) d) = ix2 k d :=
    funext fun a => Fin.ext (by match a with | ⟨0, _⟩ => rfl | ⟨1, _⟩ => rfl)
  rw [e1, e2]

/-- The second product at `(q, k)`: row `q` of the second array times row `k` of the third. -/
theorem proj_b (x1 : (⟨S1024x128, .f32⟩ : BufTy).Contents (Elt Ideal)) (x2 : (⟨S256x128, .f32⟩ : BufTy).Contents (Elt Ideal))
    (q : Fin 1024) (k : Fin 256) :
    val_main_v3 (F := Ideal) x1 x2 (ix2 q k) = dotRow (fun d => x1 (ix2 q d)) (fun d => x2 (ix2 k d)) := by
  rw [val_main_v3_apply]
  unfold dotRow
  refine Finset.sum_congr rfl fun d _ => ?_
  rw [val_main_v2_apply]
  have e1 : lidx_main_v3 (ix2 q k) d = ix2 q d :=
    funext fun a => Fin.ext (by match a with | ⟨0, _⟩ => rfl | ⟨1, _⟩ => rfl)
  have e2 : idx_main_v2 (ridx_main_v3 (ix2 q k) d) = ix2 k d :=
    funext fun a => Fin.ext (by match a with | ⟨0, _⟩ => rfl | ⟨1, _⟩ => rfl)
  rw [e1, e2]

/-- The summand at `(p, q, k)`: the first product times the bit of "`0 <` first product and second product `≤ 0`". -/
theorem summand (x0 x1 : (⟨S1024x128, .f32⟩ : BufTy).Contents (Elt Ideal)) (x2 : (⟨S256x128, .f32⟩ : BufTy).Contents (Elt Ideal))
    (p q : Fin 1024) (k : Fin 256) :
    val_main_v15 (F := Ideal) x0 x1 x2 (idx_main_v16 (ix2 p q) k)
      = dotRow (fun d => x0 (ix2 p d)) (fun d => x2 (ix2 k d))
        * posLeBit (dotRow (fun d => x0 (ix2 p d)) (fun d => x2 (ix2 k d))) (dotRow (fun d => x1 (ix2 q d)) (fun d => x2 (ix2 k d))) := by
  have e1 : idx_main_v4 (idx_main_v14 (idx_main_v16 (ix2 p q) k)) = ix2 p k :=
    funext fun a => Fin.ext (by match a with | ⟨0, _⟩ => rfl | ⟨1, _⟩ => rfl)
  have e3 : idx_main_v5 (idx_main_v11 (idx_main_v16 (ix2 p q) k)) = ix2 q k :=
    funext fun a => Fin.ext (by match a with | ⟨0, _⟩ => rfl | ⟨1, _⟩ => rfl)
  rw [val_main_v15_apply, val_main_v14_apply, val_main_v4_apply, val_main_v13_apply, val_main_v12_apply,
    val_main_v10_apply, val_main_v7_apply, val_main_v4_apply, val_main_v6_apply, val_main_cst_apply,
    val_main_v11_apply, val_main_v9_apply, val_main_v5_apply, val_main_v8_apply, val_main_cst_0_apply,
    e1, e3, proj_a, proj_b]
  unfold posLeBit
  rw [← Ideal.ofBits_zero_f32]
  rfl

/-- THE REFERENCE IS `G`: the last stage of the host program, as a function of the three arrays. -/
theorem ref_eq (x0 x1 : (⟨S1024x128, .f32⟩ : BufTy).Contents (Elt Ideal)) (x2 : (⟨S256x128, .f32⟩ : BufTy).Contents (Elt Ideal)) :
    val_main_v16 (F := Ideal) x0 x1 x2 = G x0 x1 x2 := by
  funext i
  obtain ⟨p, q, rfl⟩ : ∃ (p q : Fin 1024), i = ix2 p q := ⟨i 0, i 1, eq_ix2 i⟩
  rw [val_main_v16_apply, G_apply, ← cell_eq_sum_posLeBit]
  refine congrArg₂ (· + ·) ?_ (Finset.sum_congr rfl fun k _ => summand x0 x1 x2 p q k)
  exact Ideal.ofBits_zero_f32

end Cert.RefSide

end
-- ==== Proof.Payload.lean ====
/-
  The kernel side: what the body stores, read at one index.

  The body holds a block `x0` of 512 rows of the first array, the whole second array `x1` and the whole third array `x2`. It
  multiplies `x0` and `x1` by the transposed `x2` (a transposed array at `(d, k)` is the array at `(k, d)`, so entry `(r, k)` of
  either product is a row product `⟨row r, row k of x2⟩`), takes the maximum of the first product with `0`, turns the
  comparison "second product `≤ 0`" into the number 0 or 1 (the bit widened to 32 bits and read signed), transposes that and
  multiplies once more, every product accumulated into a zero array. A matrix product into a zero array, read at `(r, s)`, is
  the plain sum over the contracted coordinate of the operands' products: the contraction index has one axis, and is
  re-indexed by its coordinate. So the stored value at `(p, q)` is the entry `cell` of the specification for row `p` of
  the block, row `q` of `x1` and the rows of `x2`.
-/
import proofs.«126909_j89567247991564_2_alg».proof.Proof.Gen.KernelIdeal.Skeleton
import proofs.«126909_j89567247991564_2_alg».proof.Proof.Spec
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen
open Idealize.ShloMosaic Idealize.ShloMosaic.ValueIdx Cert.Spec

/-! ## The three matrix products into a zero array, at an index -/

theorem prod_blk_lhs0 (i : S512x256.Idx) (c : dot_S512x128_S128x256_S512x256_1_0_0_1_n_n.contr.Idx) :
    (dot_S512x128_S128x256_S512x256_1_0_0_1_n_n.lhsIdx i c 0).val = (i 0).val := by
  unfold DotDims.lhsIdx
  rw [dif_neg (show ¬(0 : Fin S512x128.rank) ∈ dot_S512x128_S128x256_S512x256_1_0_0_1_n_n.lhsBatch by decide),
    dif_pos (show (0 : Fin S512x128.rank) ∈ dot_S512x128_S128x256_S512x256_1_0_0_1_n_n.lhsNonContracting by decide)]
  rfl
theorem prod_blk_rhs1 (i : S512x256.Idx) (c : dot_S512x128_S128x256_S512x256_1_0_0_1_n_n.contr.Idx) :
    (dot_S512x128_S128x256_S512x256_1_0_0_1_n_n.rhsIdx i c 1).val = (i 1).val := by
  unfold DotDims.rhsIdx
  rw [dif_neg (show ¬(1 : Fin S128x256.rank) ∈ dot_S512x128_S128x256_S512x256_1_0_0_1_n_n.rhsBatch by decide),
    dif_pos (show (1 : Fin S128x256.rank) ∈ dot_S512x128_S128x256_S512x256_1_0_0_1_n_n.rhsNonContracting by decide)]
  rfl
/-- A block of 512 rows times a 128 × 256 array, into zeros, at `(r, s)`: the sum over the 128 contracted coordinates. -/
theorem prod_blk (x : FVec Ideal S512x128 .f32) (w : FVec Ideal S128x256 .f32) (r : Fin 512) (s : Fin 256) :
    FloatOps.matmul dot_S512x128_S128x256_S512x256_1_0_0_1_n_n (some .fp32) x w (constant (F := Ideal) S512x256 .f32 0x00000000#32) (ix2 r s)
      = ∑ e : Fin 128, x (ix2 r e) * w (ix2 e s) := by
  refine (Ideal.matmul_constant_zero_apply dot_S512x128_S128x256_S512x256_1_0_0_1_n_n (some .fp32) x w (ix2 r s)).trans ?_
  rw [← Equiv.sum_comp (contrEquiv1 dot_S512x128_S128x256_S512x256_1_0_0_1_n_n 128 rfl rfl).symm]
  refine Finset.sum_congr rfl fun e _ => ?_
  have he := contrEquiv1_symm_val dot_S512x128_S128x256_S512x256_1_0_0_1_n_n 128 rfl rfl e
  have el : dot_S512x128_S128x256_S512x256_1_0_0_1_n_n.lhsIdx (ix2 r s) ((contrEquiv1 dot_S512x128_S128x256_S512x256_1_0_0_1_n_n 128 rfl rfl).symm e) = ix2 r e :=
    funext fun a => Fin.ext (by
      match a with
      | ⟨0, _⟩ => exact prod_blk_lhs0 _ _
      | ⟨1, _⟩ => exact (dot_S512x128_S128x256_S512x256_1_0_0_1_n_n.lhsIdx_val_of_single rfl _ _).trans he)
  have er : dot_S512x128_S128x256_S512x256_1_0_0_1_n_n.rhsIdx (ix2 r s) ((contrEquiv1 dot_S512x128_S128x256_S512x256_1_0_0_1_n_n 128 rfl rfl).symm e) = ix2 e s :=
    funext fun a => Fin.ext (by
      match a with
      | ⟨0, _⟩ => exact (dot_S512x128_S128x256_S512x256_1_0_0_1_n_n.rhsIdx_val_of_single rfl _ _).trans he
      | ⟨1, _⟩ => exact prod_blk_rhs1 _ _)
  rw [el, er]

theorem prod_all_lhs0 (i : S1024x256.Idx) (c : dot_S1024x128_S128x256_S1024x256_1_0_0_1_n_n.contr.Idx) :
    (dot_S1024x128_S128x256_S1024x256_1_0_0_1_n_n.lhsIdx i c 0).val = (i 0).val := by
  unfold DotDims.lhsIdx
  rw [dif_neg (show ¬(0 : Fin S1024x128.rank) ∈ dot_S1024x128_S128x256_S1024x256_1_0_0_1_n_n.lhsBatch by decide),
    dif_pos (show (0 : Fin S1024x128.rank) ∈ dot_S1024x128_S128x256_S1024x256_1_0_0_1_n_n.lhsNonContracting by decide)]
  rfl
theorem prod_all_rhs1 (i : S1024x256.Idx) (c : dot_S1024x128_S128x256_S1024x256_1_0_0_1_n_n.contr.Idx) :
    (dot_S1024x128_S128x256_S1024x256_1_0_0_1_n_n.rhsIdx i c 1).val = (i 1).val := by
  unfold DotDims.rhsIdx
  rw [dif_neg (show ¬(1 : Fin S128x256.rank) ∈ dot_S1024x128_S128x256_S1024x256_1_0_0_1_n_n.rhsBatch by decide),
    dif_pos (show (1 : Fin S128x256.rank) ∈ dot_S1024x128_S128x256_S1024x256_1_0_0_1_n_n.rhsNonContracting by decide)]
  rfl
/-- All 1024 rows times a 128 × 256 array, into zeros, at `(r, s)`: the sum over the 128 contracted coordinates. -/
theorem prod_all (x : FVec Ideal S1024x128 .f32) (w : FVec Ideal S128x256 .f32) (r : Fin 1024) (s : Fin 256) :
    FloatOps.matmul dot_S1024x128_S128x256_S1024x256_1_0_0_1_n_n (some .fp32) x w (constant (F := Ideal) S1024x256 .f32 0x00000000#32) (ix2 r s)
      = ∑ e : Fin 128, x (ix2 r e) * w (ix2 e s) := by
  refine (Ideal.matmul_constant_zero_apply dot_S1024x128_S128x256_S1024x256_1_0_0_1_n_n (some .fp32) x w (ix2 r s)).trans ?_
  rw [← Equiv.sum_comp (contrEquiv1 dot_S1024x128_S128x256_S1024x256_1_0_0_1_n_n 128 rfl rfl).symm]
  refine Finset.sum_congr rfl fun e _ => ?_
  have he := contrEquiv1_symm_val dot_S1024x128_S128x256_S1024x256_1_0_0_1_n_n 128 rfl rfl e
  have el : dot_S1024x128_S128x256_S1024x256_1_0_0_1_n_n.lhsIdx (ix2 r s) ((contrEquiv1 dot_S1024x128_S128x256_S1024x256_1_0_0_1_n_n 128 rfl rfl).symm e) = ix2 r e :=
    funext fun a => Fin.ext (by
      match a with
      | ⟨0, _⟩ => exact prod_all_lhs0 _ _
      | ⟨1, _⟩ => exact (dot_S1024x128_S128x256_S1024x256_1_0_0_1_n_n.lhsIdx_val_of_single rfl _ _).trans he)
  have er : dot_S1024x128_S128x256_S1024x256_1_0_0_1_n_n.rhsIdx (ix2 r s) ((contrEquiv1 dot_S1024x128_S128x256_S1024x256_1_0_0_1_n_n 128 rfl rfl).symm e) = ix2 e s :=
    funext fun a => Fin.ext (by
      match a with
      | ⟨0, _⟩ => exact (dot_S1024x128_S128x256_S1024x256_1_0_0_1_n_n.rhsIdx_val_of_single rfl _ _).trans he
      | ⟨1, _⟩ => exact prod_all_rhs1 _ _)
  rw [el, er]

theorem prod_out_lhs0 (i : S512x1024.Idx) (c : dot_S512x256_S256x1024_S512x1024_1_0_0_1_n_n.contr.Idx) :
    (dot_S512x256_S256x1024_S512x1024_1_0_0_1_n_n.lhsIdx i c 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl
theorem prod_out_rhs1 (i : S512x1024.Idx) (c : dot_S512x256_S256x1024_S512x1024_1_0_0_1_n_n.contr.Idx) :
    (dot_S512x256_S256x1024_S512x1024_1_0_0_1_n_n.rhsIdx i c 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl
/-- The last product, 512 × 256 times 256 × 1024 into zeros, at `(r, s)`: the sum over the 256 contracted coordinates. -/
theorem prod_out (x : FVec Ideal S512x256 .f32) (w : FVec Ideal S256x1024 .f32) (r : Fin 512) (s : Fin 1024) :
    FloatOps.matmul dot_S512x256_S256x1024_S512x1024_1_0_0_1_n_n (some .fp32) x w (constant (F := Ideal) S512x1024 .f32 0x00000000#32) (ix2 r s)
      = ∑ e : Fin 256, x (ix2 r e) * w (ix2 e s) := by
  refine (Ideal.matmul_constant_zero_apply dot_S512x256_S256x1024_S512x1024_1_0_0_1_n_n (some .fp32) x w (ix2 r s)).trans ?_
  rw [← Equiv.sum_comp (contrEquiv1 dot_S512x256_S256x1024_S512x1024_1_0_0_1_n_n 256 rfl rfl).symm]
  refine Finset.sum_congr rfl fun e _ => ?_
  have he := contrEquiv1_symm_val dot_S512x256_S256x1024_S512x1024_1_0_0_1_n_n 256 rfl rfl e
  have el : dot_S512x256_S256x1024_S512x1024_1_0_0_1_n_n.lhsIdx (ix2 r s) ((contrEquiv1 dot_S512x256_S256x1024_S512x1024_1_0_0_1_n_n 256 rfl rfl).symm e) = ix2 r e :=
    funext fun a => Fin.ext (by
      match a with
      | ⟨0, _⟩ => exact prod_out_lhs0 _ _
      | ⟨1, _⟩ => exact (dot_S512x256_S256x1024_S512x1024_1_0_0_1_n_n.lhsIdx_val_of_single rfl _ _).trans he)
  have er : dot_S512x256_S256x1024_S512x1024_1_0_0_1_n_n.rhsIdx (ix2 r s) ((contrEquiv1 dot_S512x256_S256x1024_S512x1024_1_0_0_1_n_n 256 rfl rfl).symm e) = ix2 e s :=
    funext fun a => Fin.ext (by
      match a with
      | ⟨0, _⟩ => exact (dot_S512x256_S256x1024_S512x1024_1_0_0_1_n_n.rhsIdx_val_of_single rfl _ _).trans he
      | ⟨1, _⟩ => exact prod_out_rhs1 _ _)
  rw [el, er]

/-! ## The factors -/

/-- The transposed third array at `(d, k)` is the array at `(k, d)`. -/
theorem featsT_apply (x2 : FVec Ideal S256x128 .f32) (d : Fin 128) (k : Fin 256) :
    transpose S128x256 [1, 0] x2 transposes_S256x128_p1_0_S128x256 (ix2 d k) = x2 (ix2 k d) :=
  transpose_apply [1, 0] x2 transposes_S256x128_p1_0_S128x256 (ix2 d k) (ix2 k d) (fun b => match b with
    | ⟨0, _⟩ => rfl
    | ⟨1, _⟩ => rfl)

/-- The first product at `(p, k)`: row `p` of the block times row `k` of the third array. -/
theorem proj_blk (x0 : FVec Ideal S512x128 .f32) (x2 : FVec Ideal S256x128 .f32) (p : Fin 512) (k : Fin 256) :
    FloatOps.matmul dot_S512x128_S128x256_S512x256_1_0_0_1_n_n (some .fp32) x0 (transpose S128x256 [1, 0] x2 transposes_S256x128_p1_0_S128x256)
        (constant (F := Ideal) S512x256 .f32 0x00000000#32) (ix2 p k)
      = dotRow (fun d => x0 (ix2 p d)) (fun d => x2 (ix2 k d)) := by
  refine (prod_blk x0 _ p k).trans ?_
  unfold dotRow
  exact Finset.sum_congr rfl fun d _ => congrArg (x0 (ix2 p d) * ·) (featsT_apply x2 d k)

/-- The second product at `(q, k)`: row `q` of the second array times row `k` of the third. -/
theorem proj_all (x1 : FVec Ideal S1024x128 .f32) (x2 : FVec Ideal S256x128 .f32) (q : Fin 1024) (k : Fin 256) :
    FloatOps.matmul dot_S1024x128_S128x256_S1024x256_1_0_0_1_n_n (some .fp32) x1 (transpose S128x256 [1, 0] x2 transposes_S256x128_p1_0_S128x256)
        (constant (F := Ideal) S1024x256 .f32 0x00000000#32) (ix2 q k)
      = dotRow (fun d => x1 (ix2 q d)) (fun d => x2 (ix2 k d)) := by
  refine (prod_all x1 _ q k).trans ?_
  unfold dotRow
  exact Finset.sum_congr rfl fun d _ => congrArg (x1 (ix2 q d) * ·) (featsT_apply x2 d k)

/-! ## The stored value at an index -/

/-- THE PAYLOAD at `(p, q)` is the specification's entry for row `p` of the block, row `q` of the second array and the rows
    of the third. -/
theorem pay_apply (x0 : Vec Ideal S512x128 .f32) (x1 : Vec Ideal S1024x128 .f32) (x2 : Vec Ideal S256x128 .f32)
    (p : Fin 512) (q : Fin 1024) :
    k0_pay1 (F := Ideal) x0 x1 x2 (ix2 p q)
      = cell (fun d => x0 (ix2 p d)) (fun d => x1 (ix2 q d)) (fun k d => x2 (ix2 k d)) := by
  unfold k0_pay1
  refine (prod_out _ _ p q).trans ?_
  unfold cell
  refine Finset.sum_congr rfl fun k _ => ?_
  refine congrArg₂ (· * ·) ?_ ?_
  · -- the maximum with the zero word
    show max (FloatOps.matmul dot_S512x128_S128x256_S512x256_1_0_0_1_n_n (some .fp32) x0 (transpose S128x256 [1, 0] x2 transposes_S256x128_p1_0_S128x256)
        (constant (F := Ideal) S512x256 .f32 0x00000000#32) (ix2 p k)) (Ideal.ofBits .f32 0x00000000#32) = _
    rw [proj_blk, Ideal.ofBits_zero_f32]
  · -- the comparison's bit through the transpose
    refine (transpose_apply [1, 0] _ transposes_S1024x256_p1_0_S256x1024 (ix2 k q) (ix2 q k) (fun b => match b with
      | ⟨0, _⟩ => rfl
      | ⟨1, _⟩ => rfl)).trans ?_
    show (((((Ideal.cmp .ole (FloatOps.matmul dot_S1024x128_S128x256_S1024x256_1_0_0_1_n_n (some .fp32) x1 (transpose S128x256 [1, 0] x2 transposes_S256x128_p1_0_S128x256)
        (constant (F := Ideal) S1024x256 .f32 0x00000000#32) (ix2 q k)) (Ideal.ofBits .f32 0x00000000#32)).setWidth 32).toInt : ℤ) : ℝ) : EReal) = _
    rw [proj_all, Ideal.ofBits_zero_f32]
    rfl

end Cert.KernelSide

end
-- ==== Proof.Blocks.lean ====
/-
  From the blocks to the array.

  The output is written back in two blocks of 512 rows, all 1024 columns each: point `t` of the grid writes rows
  `512 t … 512 t + 511`. At that point the body holds rows `512 t … 512 t + 511` of the first array and the whole of the
  second and third arrays (their blocks never move). So the stored value at block index `(p, q)` — the entry for row `p` of the
  block, row `q` of the second array — is the result function `G` at array index `(512 t + p, q)`: what point `t` writes back
  is block `t` of `G`. The two blocks tile the array (row `r` lies in block `r / 512`), so after the run the array is `G` of
  the three argument arrays.
-/
import proofs.«126909_j89567247991564_2_alg».proof.Proof.Gen.KernelIdeal.Value
import proofs.«126909_j89567247991564_2_alg».proof.Proof.Payload
import Idealize.ShloMosaic.Lib.Pipeline.Value
import Idealize.ShloMosaic.Lib.Tactic

noncomputable section

open scoped BigOperators

namespace Cert.KernelSide

open Cert.KernelIdeal Cert.KernelIdeal.Gen
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One point: the stored value is `G` where the rows agree -/

/-- If row `y 0` of the first block is row `i 0` of `a`, row `y 1` of the second block is row `i 1` of `b`, and the third block is
    `f`, the stored value at `y` is `G a b f` at `i`. -/
theorem pay_eq_G (x0 : Vec Ideal S512x128 .f32) (x1 : Vec Ideal S1024x128 .f32) (x2 : Vec Ideal S256x128 .f32)
    (a b : S1024x128.Idx → EReal) (f : S256x128.Idx → EReal) (y : S512x1024.Idx) (i : S1024x1024.Idx)
    (h0 : ∀ d : Fin 128, x0 (ix2 (⟨(y 0).val, (y 0).isLt⟩ : Fin 512) d) = a (ix2 (⟨(i 0).val, (i 0).isLt⟩ : Fin 1024) d))
    (h1 : ∀ d : Fin 128, x1 (ix2 (⟨(y 1).val, (y 1).isLt⟩ : Fin 1024) d) = b (ix2 (⟨(i 1).val, (i 1).isLt⟩ : Fin 1024) d))
    (h2 : ∀ (k : Fin 256) (d : Fin 128), x2 (ix2 k d) = f (ix2 k d)) :
    k0_pay1 (F := Ideal) x0 x1 x2 y = G a b f i := by
  obtain ⟨p, q, rfl⟩ : ∃ (p : Fin 512) (q : Fin 1024), y = ix2 p q := ⟨y 0, y 1, eq_ix2 y⟩
  have e0 : (fun d => x0 (ix2 p d)) = fun d => a (ix2 (⟨(i 0).val, (i 0).isLt⟩ : Fin 1024) d) := funext h0
  have e1 : (fun d => x1 (ix2 q d)) = fun d => b (ix2 (⟨(i 1).val, (i 1).isLt⟩ : Fin 1024) d) := funext h1
  have e2 : (fun k d => x2 (ix2 k d)) = fun k d => f (ix2 k d) := funext fun k => funext (h2 k)
  rw [pay_apply, e0, e1, e2]
  rfl

/-! ## The input blocks, read through their windows -/

/-- The first window's block at point `t`, at `x`, is the first array at the index whose coordinates are block index × block
    size + the coordinate inside the block. -/
theorem blk0_apply (c : Dev nD) (t : Fin cfg0.N) (x : S512x128.Idx) (k : S1024x128.Idx)
    (hk0 : (k 0).val = win0_0.index t (0 : Fin 2) * 512 + (x 0).val)
    (hk1 : (k 1).val = win0_0.index t (1 : Fin 2) * 128 + (x 1).val) :
    (iblk m c 0 t : Vec Ideal S512x128 .f32) x = (m ((c : Thread nD τ).loc main_arg0) : S1024x128.Idx → Elt Ideal .f32) k := by
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 512 + 1 * (x 0).val = (k 0).val; omega
  | ⟨1, _⟩ => show win0_0.index t (1 : Fin 2) * 128 + 1 * (x 1).val = (k 1).val; omega

/-- The second window's block likewise, of the second array. -/
theorem blk1_apply (c : Dev nD) (t : Fin cfg0.N) (x : S1024x128.Idx) (k : S1024x128.Idx)
    (hk0 : (k 0).val = win0_1.index t (0 : Fin 2) * 1024 + (x 0).val)
    (hk1 : (k 1).val = win0_1.index t (1 : Fin 2) * 128 + (x 1).val) :
    (iblk m c 1 t : Vec Ideal S1024x128 .f32) x = (m ((c : Thread nD τ).loc main_arg1) : S1024x128.Idx → Elt Ideal .f32) k := by
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t (0 : Fin 2) * 1024 + 1 * (x 0).val = (k 0).val; omega
  | ⟨1, _⟩ => show win0_1.index t (1 : Fin 2) * 128 + 1 * (x 1).val = (k 1).val; omega

/-- The third window's block likewise, of the third array. -/
theorem blk2_apply (c : Dev nD) (t : Fin cfg0.N) (x : S256x128.Idx) (k : S256x128.Idx)
    (hk0 : (k 0).val = win0_2.index t (0 : Fin 2) * 256 + (x 0).val)
    (hk1 : (k 1).val = win0_2.index t (1 : Fin 2) * 128 + (x 1).val) :
    (iblk m c 2 t : Vec Ideal S256x128 .f32) x = (m ((c : Thread nD τ).loc main_arg2) : S256x128.Idx → Elt Ideal .f32) k := by
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ => show win0_2.index t (0 : Fin 2) * 256 + 1 * (x 0).val = (k 0).val; omega
  | ⟨1, _⟩ => show win0_2.index t (1 : Fin 2) * 128 + 1 * (x 1).val = (k 1).val; omega

/-! ## The index maps, decided over the two points -/

/-- The first window moves down the rows with the output; the second and third stay at block zero; the output's blocks are
    row blocks 0 and 1 of the one column block. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 1 ∧ win0_3.index t (1 : Fin 2) = 0 :=
  (by decide +kernel : ∀ t : Fin grid0.N, _)

/-- Each of the two row blocks is some point's. -/
theorem idx_onto : ∀ r : Fin 2, ∃ t : Fin cfg0.N, win0_3.index t = ![r.val, 0] :=
  (by decide +kernel : ∀ r : Fin 2, ∃ t : Fin grid0.N, win0_3.index t = ![r.val, 0])

/-! ## What a point writes back, the cover, the array -/

/-- WHAT POINT `t` WRITES BACK is block `t` of `G` of the three argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S512x128) hz, View.ld_unit_zero (S := S1024x128) hz, View.ld_unit_zero (S := S256x128) hz]
  obtain ⟨e00, e01, e10, e11, e20, e21, e3le, e31⟩ := idx_facts t
  funext y
  show k0_pay1 (F := Ideal) (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y)
  have hy0 : (y 0).val < 512 := (y 0).isLt
  have hy1 : (y 1).val < 1024 := (y 1).isLt
  have E0 : ((((cfg0.win 3).blk t).view.emb y) 0).val = win0_3.index t (0 : Fin 2) * 512 + 1 * (y 0).val := rfl
  have E1 : ((((cfg0.win 3).blk t).view.emb y) 1).val = win0_3.index t (1 : Fin 2) * 1024 + 1 * (y 1).val := rfl
  refine pay_eq_G (iblk m c 0 t) (iblk m c 1 t) (iblk m c 2 t) _ _ _ y _ (fun d => ?_) (fun d => ?_) (fun k d => ?_)
  · refine blk0_apply m c t _ _ ?_ ?_
    · show ((((cfg0.win 3).blk t).view.emb y) 0).val = win0_0.index t (0 : Fin 2) * 512 + (y 0).val
      omega
    · show d.val = win0_0.index t (1 : Fin 2) * 128 + d.val
      omega
  · refine blk1_apply m c t _ _ ?_ ?_
    · show ((((cfg0.win 3).blk t).view.emb y) 1).val = win0_1.index t (0 : Fin 2) * 1024 + (y 1).val
      omega
    · show d.val = win0_1.index t (1 : Fin 2) * 128 + d.val
      omega
  · refine blk2_apply m c t _ _ ?_ ?_
    · show k.val = win0_2.index t (0 : Fin 2) * 256 + k.val
      omega
    · show d.val = win0_2.index t (1 : Fin 2) * 128 + d.val
      omega

/-- An index of the array is in point `t`'s block iff each coordinate is in the block's range on its axis. -/
theorem mem_blk (t : Fin cfg0.N) (i : S1024x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0).slice (win0_3.rect t)).set ↔ _
  rw [View.set_slice_whole, Rect.mem_set_unit]
  exact Iff.rfl

/-- THE COVER: row `r` of the array lies in the block of the point whose row block is `r / 512`. -/
theorem cover (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE ARRAY after the run is `G` of the three argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- THE RUN, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelSide

end
-- ==== Proof.lean ====
/-
  The certificate: a kernel that computes, for arrays `a`, `b` (1024 rows) and `f` (256 rows) of rows of 128 entries,

      out (p, q) = ∑ k, max ⟨a p, f k⟩ 0 * [⟨b q, f k⟩ ≤ 0]          (⟨u, w⟩ = ∑ d, u d * w d)

  as one matrix product of the clipped first projection with the transposed 0/1 indicator of the second, against a reference
  that builds the three-axis array `⟨a p, f k⟩ * [0 < ⟨a p, f k⟩ and ⟨b q, f k⟩ ≤ 0]` and sums its last axis from zero.

  On the extended reals the two agree term by term (Proof/Spec.lean, `mul_posLeBit`): where `0 < x`, `max x 0 = x` and the
  conjunction's bit is the second comparison's; where `x ≤ 0`, both products are `0`, a product with `0` being `0` for every
  extended real. No law here needs a finite operand, so the precondition is never opened.

  Proof/Spec.lean states the result as one function `G` of the three arrays and proves the termwise law. Proof/RefValue.lean
  reads the reference's last stage at an index: it is `G`. Proof/Payload.lean reads the value the kernel's body stores at an
  index: the same entry, of the rows the body holds. Proof/Blocks.lean carries that from the two row blocks the grid writes
  back to the whole array. Here the five claims are assembled: the three frames, the idealization (the kernel's text read on
  the extended reals, nothing rewritten), and the equality of the two results, both runs posted at the same `G`.
-/
import proofs.«126909_j89567247991564_2_alg».proof.Defs
import proofs.«126909_j89567247991564_2_alg».proof.Proof.Gen.Kernel
import proofs.«126909_j89567247991564_2_alg».proof.Proof.Gen.Kernel.Skeleton
import proofs.«126909_j89567247991564_2_alg».proof.Proof.Gen.Kernel.Launch
import proofs.«126909_j89567247991564_2_alg».proof.Proof.Gen.Kernel.Points
import proofs.«126909_j89567247991564_2_alg».proof.Proof.Gen.Kernel.Frame
import proofs.«126909_j89567247991564_2_alg».proof.Proof.Gen.KernelIdeal
import proofs.«126909_j89567247991564_2_alg».proof.Proof.Gen.KernelIdeal.Skeleton
import proofs.«126909_j89567247991564_2_alg».proof.Proof.Gen.KernelIdeal.Launch
import proofs.«126909_j89567247991564_2_alg».proof.Proof.Gen.KernelIdeal.Points
import proofs.«126909_j89567247991564_2_alg».proof.Proof.Gen.KernelIdeal.Frame
import proofs.«126909_j89567247991564_2_alg».proof.Proof.Gen.ReferenceIdeal
import proofs.«126909_j89567247991564_2_alg».proof.Proof.Gen.Pre_finite_inputs
import proofs.«126909_j89567247991564_2_alg».proof.Proof.Gen.KernelIdeal.Value
import proofs.«126909_j89567247991564_2_alg».proof.Proof.Gen.ReferenceIdeal.Run
import proofs.«126909_j89567247991564_2_alg».proof.Proof.Gen.ReferenceIdeal.Read
import proofs.«126909_j89567247991564_2_alg».proof.Proof.Spec
import proofs.«126909_j89567247991564_2_alg».proof.Proof.RefValue
import proofs.«126909_j89567247991564_2_alg».proof.Proof.Payload
import proofs.«126909_j89567247991564_2_alg».proof.Proof.Blocks
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to restate. -/
theorem preserves : Cert.preserves_Kernel_KernelIdeal := trivial

/-- From memories that agree on the three arrays, the kernel's result array ends at `G` of them (Proof/Blocks.lean) and the
    reference's at its last stage of them, which is `G` (Proof/RefValue.lean): equal, entry by entry. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
